-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x16384 : Shape := ⟨2, ![12288, 16384]⟩
abbrev S2x524288 : Shape := ⟨2, ![2, 524288]⟩
abbrev S16384x5 : Shape := ⟨2, ![16384, 5]⟩
abbrev S5 : Shape := ⟨1, ![5]⟩
abbrev S5x1 : Shape := ⟨2, ![5, 1]⟩
abbrev S1 : Shape := ⟨1, ![1]⟩
abbrev S_ : Shape := ⟨0, ![]⟩

class Facts : Prop where
  bcast_S_S12288x16384 : S_.BroadcastsInDim S12288x16384 (![] : Fin 0 → Fin S12288x16384.rank)
  reducesTo_S12288x16384_S_d0_1 : S12288x16384.ReducesTo [0, 1] S_
  h_S_ : 0 < S_.numel
  bcast_S_S16384x5 : S_.BroadcastsInDim S16384x5 (![] : Fin 0 → Fin S16384x5.rank)
  reducesTo_S16384x5_S_d0_1 : S16384x5.ReducesTo [0, 1] S_
  bcast_S_S5 : S_.BroadcastsInDim S5 (![] : Fin 0 → Fin S5.rank)
  reducesTo_S5_S_d0 : S5.ReducesTo [0] S_
  bcast_S_S5x1 : S_.BroadcastsInDim S5x1 (![] : Fin 0 → Fin S5x1.rank)
  reducesTo_S5x1_S_d0_1 : S5x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S5x1 1) : IVec S_ 1 :=
  let main_c_5 : IVec S_ 1 := constantI S_ 1 1#1
  let main_v17 : IVec S_ 1 := (fun x v => Host.reduce IntOp.andi x v reducesTo_S5x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S12288x16384 .f32) (main_arg1 : IVec S2x524288 32) (main_arg2 : FVec F S16384x5 .f32) (main_arg3 : FVec F S5 .f32) (main_arg4 : FVec F S5x1 .f32) (main_arg5 : FVec F S1 .f32) : IVec S_ 1 :=
  let main_v0 : FVec F S12288x16384 .f32 := Host.absf main_arg0
  let main_cst : FVec F S_ .f32 := constant S_ .f32 0x7F800000#32
  let main_v1 : FVec F S12288x16384 .f32 := broadcastInDim S12288x16384 ![] bcast_S_S12288x16384 main_cst
  let main_v2 : IVec S12288x16384 1 := cmpf .olt main_v0 main_v1
  let main_c : IVec S_ 1 := constantI S_ 1 1#1
  let main_v3 : IVec S_ 1 := (fun x v => Host.reduce IntOp.andi x v reducesTo_S12288x16384_S_d0_1 h_S_) main_v2 main_c
  let main_v4 : FVec F S16384x5 .f32 := Host.absf main_arg2
  let main_cst_0 : FVec F S_ .f32 := constant S_ .f32 0x7F800000#32
  let main_v5 : FVec F S16384x5 .f32 := broadcastInDim S16384x5 ![] bcast_S_S16384x5 main_cst_0
  let main_v6 : IVec S16384x5 1 := cmpf .olt main_v4 main_v5
  let main_c_1 : IVec S_ 1 := constantI S_ 1 1#1
  let main_v7 : IVec S_ 1 := (fun x v => Host.reduce IntOp.andi x v reducesTo_S16384x5_S_d0_1 h_S_) main_v6 main_c_1
  let main_v8 : IVec S_ 1 := andi main_v3 main_v7
  let main_v9 : FVec F S5 .f32 := Host.absf main_arg3
  let main_cst_2 : FVec F S_ .f32 := constant S_ .f32 0x7F800000#32
  let main_v10 : FVec F S5 .f32 := broadcastInDim S5 ![] bcast_S_S5 main_cst_2
  let main_v11 : IVec S5 1 := cmpf .olt main_v9 main_v10
  let main_c_3 : IVec S_ 1 := constantI S_ 1 1#1
  let main_v12 : IVec S_ 1 := (fun x v => Host.reduce IntOp.andi x v reducesTo_S5_S_d0 h_S_) main_v11 main_c_3
  let main_v13 : IVec S_ 1 := andi main_v8 main_v12
  let main_v14 : FVec F S5x1 .f32 := Host.absf main_arg4
  let main_cst_4 : FVec F S_ .f32 := constant S_ .f32 0x7F800000#32
  let main_v15 : FVec F S5x1 .f32 := broadcastInDim S5x1 ![] bcast_S_S5x1 main_cst_4
  let main_v16 : IVec S5x1 1 := cmpf .olt main_v14 main_v15
  fn_part1 (F := F) main_arg5 main_v13 main_v16
-- ==== Kernel.lean ====
abbrev S12288x16384 : Shape := ⟨2, ![12288, 16384]⟩
abbrev S2x524288 : Shape := ⟨2, ![2, 524288]⟩
abbrev S16384x5 : Shape := ⟨2, ![16384, 5]⟩
abbrev S5 : Shape := ⟨1, ![5]⟩
abbrev S5x1 : Shape := ⟨2, ![5, 1]⟩
abbrev S1 : Shape := ⟨1, ![1]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S_ : Shape := ⟨0, ![]⟩
abbrev S540672x1 : Shape := ⟨2, ![540672, 1]⟩
abbrev S12288x5 : Shape := ⟨2, ![12288, 5]⟩
abbrev S1024x2048 : Shape := ⟨2, ![1024, 2048]⟩
abbrev S2048x5 : Shape := ⟨2, ![2048, 5]⟩
abbrev S1024x5 : Shape := ⟨2, ![1024, 5]⟩
abbrev S4096x5 : Shape := ⟨2, ![4096, 5]⟩
abbrev S540672x5 : Shape := ⟨2, ![540672, 5]⟩
abbrev S1x5 : Shape := ⟨2, ![1, 5]⟩
abbrev S16384x1 : Shape := ⟨2, ![16384, 1]⟩
abbrev S1x1 : Shape := ⟨2, ![1, 1]⟩

abbrev nBuf : Space → Nat
  | .hbm => 107
  | .vmem => 6
  | .smem => 0
  | _ => 0

abbrev bufTy : (tb : Table) → Fin (tcTables nBuf tb) → BufTy
  | .hbm, ⟨0, _⟩ => ⟨S12288x16384, .f32⟩
  | .hbm, ⟨1, _⟩ => ⟨S2x524288, .i32⟩
  | .hbm, ⟨2, _⟩ => ⟨S16384x5, .f32⟩
  | .hbm, ⟨3, _⟩ => ⟨S5, .f32⟩
  | .hbm, ⟨4, _⟩ => ⟨S5x1, .f32⟩
  | .hbm, ⟨5, _⟩ => ⟨S1, .f32⟩
  | .hbm, ⟨6, _⟩ => ⟨S16384, .i32⟩
  | .hbm, ⟨7, _⟩ => ⟨S1x524288, .i32⟩
  | .hbm, ⟨8, _⟩ => ⟨S524288, .i32⟩
  | .hbm, ⟨9, _⟩ => ⟨S540672, .i32⟩
  | .hbm, ⟨10, _⟩ => ⟨S1x524288, .i32⟩
  | .hbm, ⟨11, _⟩ => ⟨S524288, .i32⟩
  | .hbm, ⟨12, _⟩ => ⟨S540672, .i32⟩
  | .hbm, ⟨13, _⟩ => ⟨S_, .f32⟩
  | .hbm, ⟨14, _⟩ => ⟨S540672, .f32⟩
  | .hbm, ⟨15, _⟩ => ⟨S_, .f32⟩
  | .hbm, ⟨16, _⟩ => ⟨S16384, .f32⟩
  | .hbm, ⟨17, _⟩ => ⟨S540672x1, .i32⟩
  | .hbm, ⟨18, _⟩ => ⟨S16384, .f32⟩
  | .hbm, ⟨19, _⟩ => ⟨S_, .f32⟩
  | .hbm, ⟨20, _⟩ => ⟨S16384, .f32⟩
  | .hbm, ⟨21, _⟩ => ⟨S16384, .i1⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S16384, .f32⟩
  | .hbm, ⟨29, _⟩ => ⟨S16384, .f32⟩
  | .hbm, ⟨30, _⟩ => ⟨S_, .i32⟩
  | .hbm, ⟨31, _⟩ => ⟨S540672, .i32⟩
  | .hbm, ⟨32, _⟩ => ⟨S540672, .i1⟩
  | .hbm, ⟨33, _⟩ => ⟨S_, .i32⟩
  | .hbm, ⟨34, _⟩ => ⟨S540672, .i32⟩
  | .hbm, ⟨35, _⟩ => ⟨S540672, .i32⟩
  | .hbm, ⟨36, _⟩ => ⟨S540672, .i32⟩
  | .hbm, ⟨37, _⟩ => ⟨S540672x1, .i32⟩
  | .hbm, ⟨38, _⟩ => ⟨S540672, .f32⟩
  | .hbm, ⟨39, _⟩ => ⟨S_, .i32⟩
  | .hbm, ⟨40, _⟩ => ⟨S540672, .i32⟩
  | .hbm, ⟨41, _⟩ => ⟨S540672, .i1⟩
  | .hbm, ⟨42, _⟩ => ⟨S_, .i32⟩
  | .hbm, ⟨43, _⟩ => ⟨S540672, .i32⟩
  | .hbm, ⟨44, _⟩ => ⟨S540672, .i32⟩
  | .hbm, ⟨45, _⟩ => ⟨S540672, .i32⟩
  | .hbm, ⟨46, _⟩ => ⟨S540672x1, .i32⟩
  | .hbm, ⟨47, _⟩ => ⟨S540672, .f32⟩
  | .hbm, ⟨48, _⟩ => ⟨S540672, .f32⟩
  | .hbm, ⟨49, _⟩ => ⟨S12288x5, .f32⟩
  | .hbm, ⟨50, _⟩ => ⟨S_, .f32⟩
  | .hbm, ⟨51, _⟩ => ⟨S4096x5, .f32⟩
  | .hbm, ⟨52, _⟩ => ⟨S16384x5, .f32⟩
  | .hbm, ⟨53, _⟩ => ⟨S_, .i32⟩
  | .hbm, ⟨54, _⟩ => ⟨S540672, .i32⟩
  | .hbm, ⟨55, _⟩ => ⟨S540672, .i1⟩
  | .hbm, ⟨56, _⟩ => ⟨S_, .i32⟩
  | .hbm, ⟨57, _⟩ => ⟨S540672, .i32⟩
  | .hbm, ⟨58, _⟩ => ⟨S540672, .i32⟩
  | .hbm, ⟨59, _⟩ => ⟨S540672, .i32⟩
  | .hbm, ⟨60, _⟩ => ⟨S540672x1, .i32⟩
  | .hbm, ⟨61, _⟩ => ⟨S540672x5, .f32⟩
  | .hbm, ⟨62, _⟩ => ⟨S540672x1, .f32⟩
  | .hbm, ⟨63, _⟩ => ⟨S540672x5, .f32⟩
  | .hbm, ⟨64, _⟩ => ⟨S540672x5, .f32⟩
  | .hbm, ⟨65, _⟩ => ⟨S_, .f32⟩
  | .hbm, ⟨66, _⟩ => ⟨S16384x5, .f32⟩
  | .hbm, ⟨67, _⟩ => ⟨S540672x1, .i32⟩
  | .hbm, ⟨68, _⟩ => ⟨S16384x5, .f32⟩
  | .hbm, ⟨69, _⟩ => ⟨S1x5, .f32⟩
  | .hbm, ⟨70, _⟩ => ⟨S16384x5, .f32⟩
  | .hbm, ⟨71, _⟩ => ⟨S16384x5, .f32⟩
  | .hbm, ⟨72, _⟩ => ⟨S_, .f32⟩
  | .hbm, ⟨73, _⟩ => ⟨S16384x5, .f32⟩
  | .hbm, ⟨74, _⟩ => ⟨S16384x5, .f32⟩
  | .hbm, ⟨75, _⟩ => ⟨S16384x1, .f32⟩
  | .hbm, ⟨76, _⟩ => ⟨S_, .i32⟩
  | .hbm, ⟨77, _⟩ => ⟨S540672, .i32⟩
  | .hbm, ⟨78, _⟩ => ⟨S540672, .i1⟩
  | .hbm, ⟨79, _⟩ => ⟨S_, .i32⟩
  | .hbm, ⟨80, _⟩ => ⟨S540672, .i32⟩
  | .hbm, ⟨81, _⟩ => ⟨S540672, .i32⟩
  | .hbm, ⟨82, _⟩ => ⟨S540672, .i32⟩
  | .hbm, ⟨83, _⟩ => ⟨S540672x1, .i32⟩
  | .hbm, ⟨84, _⟩ => ⟨S540672x1, .f32⟩
  | .hbm, ⟨85, _⟩ => ⟨S540672x1, .f32⟩
  | .hbm, ⟨86, _⟩ => ⟨S540672x1, .f32⟩
  | .hbm, ⟨87, _⟩ => ⟨S_, .f32⟩
  | .hbm, ⟨88, _⟩ => ⟨S16384x1, .f32⟩
  | .hbm, ⟨89, _⟩ => ⟨S540672x1, .i32⟩
  | .hbm, ⟨90, _⟩ => ⟨S16384x1, .f32⟩
  | .hbm, ⟨91, _⟩ => ⟨S1x1, .f32⟩
  | .hbm, ⟨92, _⟩ => ⟨S16384x1, .f32⟩
  | .hbm, ⟨93, _⟩ => ⟨S16384x1, .f32⟩
  | .hbm, ⟨94, _⟩ => ⟨S_, .f32⟩
  | .hbm, ⟨95, _⟩ => ⟨S16384, .f32⟩
  | .hbm, ⟨96, _⟩ => ⟨S_, .f32⟩
  | .hbm, ⟨97, _⟩ => ⟨S16384, .f32⟩
  | .hbm, ⟨98, _⟩ => ⟨S16384, .f32⟩
  | .hbm, ⟨99, _⟩ => ⟨S16384x1, .f32⟩
  | .hbm, ⟨100, _⟩ => ⟨S16384x1, .f32⟩
  | .hbm, ⟨101, _⟩ => ⟨S16384x1, .f32⟩
  | .hbm, ⟨102, _⟩ => ⟨S_, .f32⟩
  | .hbm, ⟨103, _⟩ => ⟨S16384, .f32⟩
  | .hbm, ⟨104, _⟩ => ⟨S16384x1, .f32⟩
  | .hbm, ⟨105, _⟩ => ⟨S16384x1, .f32⟩
  | .hbm, ⟨106, _⟩ => ⟨S16384x1, .f32⟩
  | .local _ .vmem, ⟨0, _⟩ => ⟨S1024x2048, .f32⟩
  | .local _ .vmem, ⟨1, _⟩ => ⟨S1024x2048, .f32⟩
  | .local _ .vmem, ⟨2, _⟩ => ⟨S2048x5, .f32⟩
  | .local _ .vmem, ⟨3, _⟩ => ⟨S2048x5, .f32⟩
  | .local _ .vmem, ⟨4, _⟩ => ⟨S1024x5, .f32⟩
  | .local _ .vmem, ⟨5, _⟩ => ⟨S1024x5, .f32⟩
  | _, _ => ⟨S12288x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_c_12 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_13 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_call2_cst : Ref sig .tc := ⟨.hbm, 94, rfl⟩
abbrev main_call2_v0 : Ref sig .tc := ⟨.hbm, 95, rfl⟩
abbrev main_call2_cst_0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_cst_1 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_v68 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![12, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  inb_S1024x5_S1024x5_0_0 : ∀ a, (![0, 0] : Fin 2 → Nat) a + S1024x5.size a ≤ S1024x5.size a
  h_S1024x5 : 0 < S1024x5.numel
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  inb_S2048x5_S2048x5_0_0 : ∀ a, (![0, 0] : Fin 2 → Nat) a + S2048x5.size a ≤ S2048x5.size a
  h_S2048x5 : 0 < S2048x5.numel
  shapeCasts_S1024x5_S1024x5 : S1024x5.ShapeCasts S1024x5
  bcast_S_S4096x5 : S_.BroadcastsInDim S4096x5 (![] : Fin 0 → Fin S4096x5.rank)
  concatenates_S12288x5_S4096x5_S16384x5_d0 : Shape.Concatenates [S12288x5, S4096x5] S16384x5 0
  bcast_S540672x1_S540672x5_0_1 : S540672x1.BroadcastsInDim S540672x5 (![0, 1] : Fin 2 → Fin S540672x5.rank)
  bcast_S_S16384x5 : S_.BroadcastsInDim S16384x5 (![] : Fin 0 → Fin S16384x5.rank)
  bcast_S5_S1x5_1 : S5.BroadcastsInDim S1x5 (![1] : Fin 1 → Fin S1x5.rank)
  bcast_S1x5_S16384x5_0_1 : S1x5.BroadcastsInDim S16384x5 (![0, 1] : Fin 2 → Fin S16384x5.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x1_0 : S16384.BroadcastsInDim S16384x1 (![0] : Fin 1 → Fin S16384x1.rank)
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  dot_S1024x2048_S2048x5_S1024x5_1_0_0_1_n_n_wf : DotDims.WF S1024x2048 S2048x5 S1024x5 [1] [0] [0] [1] [] []
  gather_S16384x5_S540672x1_S540672x5_1_0_n_n_0_1_15_wf : GatherDims.WF S16384x5 S540672x1 S540672x5 [1] [0] [] [0] [] 1 ![1, 5]
  scatter_S16384x5_S540672x1_S540672x5_1_0_0_1_wf : ScatterDims.WF S16384x5 S540672x1 S540672x5 [1] [0] [0] 1
  dot_S16384x5_S5x1_S16384x1_1_0_0_1_n_n_wf : DotDims.WF S16384x5 S5x1 S16384x1 [1] [0] [0] [1] [] []
  gather_S16384x1_S540672x1_S540672x1_1_0_n_n_0_1_11_wf : GatherDims.WF S16384x1 S540672x1 S540672x1 [1] [0] [] [0] [] 1 ![1, 1]
  scatter_S16384x1_S540672x1_S540672x1_1_0_0_1_wf : ScatterDims.WF S16384x1 S540672x1 S540672x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S12288x16384.size a
  hwx0_0 : ∀ i : grid0.Coords, EltTy.bits .f32 = 32 ∨ (Rect.block (s := S12288x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x5.size a ≤ S16384x5.size a
  hwx0_1 : ∀ i : grid0.Coords, EltTy.bits .f32 = 32 ∨ (Rect.block (s := S16384x5) S2048x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x5.size a ≤ S12288x5.size a
  hwx0_2 : ∀ i : grid0.Coords, EltTy.bits .f32 = 32 ∨ (Rect.block (s := S12288x5) S1024x5.size (cc0_transform_2 i) (hinb0_2 i)).WholeWords (EltTy.packing .f32)

variable [Facts₀]

def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def dot_S1024x2048_S2048x5_S1024x5_1_0_0_1_n_n : DotDims S1024x2048 S2048x5 S1024x5 where
  lhsContracting := [1]
  rhsContracting := [0]
  lhsNonContracting := [0]
  rhsNonContracting := [1]
  lhsBatch := []
  rhsBatch := []
  wf := dot_S1024x2048_S2048x5_S1024x5_1_0_0_1_n_n_wf
def gather_S16384x5_S540672x1_S540672x5_1_0_n_n_0_1_15 : GatherDims S16384x5 S540672x1 S540672x5 where
  offsetDims := [1]
  collapsedSliceDims := [0]
  operandBatchingDims := []
  startIndicesBatchingDims := []
  startIndexMap := [0]
  indexVectorDim := 1
  sliceSizes := ![1, 5]
  wf := gather_S16384x5_S540672x1_S540672x5_1_0_n_n_0_1_15_wf
def scatter_S16384x5_S540672x1_S540672x5_1_0_0_1 : ScatterDims S16384x5 S540672x1 S540672x5 where
  updateWindowDims := [1]
  insertedWindowDims := [0]
  scatterDimsToOperandDims := [0]
  indexVectorDim := 1
  wf := scatter_S16384x5_S540672x1_S540672x5_1_0_0_1_wf
def dot_S16384x5_S5x1_S16384x1_1_0_0_1_n_n : DotDims S16384x5 S5x1 S16384x1 where
  lhsContracting := [1]
  rhsContracting := [0]
  lhsNonContracting := [0]
  rhsNonContracting := [1]
  lhsBatch := []
  rhsBatch := []
  wf := dot_S16384x5_S5x1_S16384x1_1_0_0_1_n_n_wf
def gather_S16384x1_S540672x1_S540672x1_1_0_n_n_0_1_11 : GatherDims S16384x1 S540672x1 S540672x1 where
  offsetDims := [1]
  collapsedSliceDims := [0]
  operandBatchingDims := []
  startIndicesBatchingDims := []
  startIndexMap := [0]
  indexVectorDim := 1
  sliceSizes := ![1, 1]
  wf := gather_S16384x1_S540672x1_S540672x1_1_0_n_n_0_1_11_wf
def scatter_S16384x1_S540672x1_S540672x1_1_0_0_1 : ScatterDims S16384x1 S540672x1 S540672x1 where
  updateWindowDims := [1]
  insertedWindowDims := [0]
  scatterDimsToOperandDims := [0]
  indexVectorDim := 1
  wf := scatter_S16384x1_S540672x1_S540672x1_1_0_0_1_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1024x5.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S12288x16384 : Shape := ⟨2, ![12288, 16384]⟩
abbrev S2x524288 : Shape := ⟨2, ![2, 524288]⟩
abbrev S16384x5 : Shape := ⟨2, ![16384, 5]⟩
abbrev S5 : Shape := ⟨1, ![5]⟩
abbrev S5x1 : Shape := ⟨2, ![5, 1]⟩
abbrev S1 : Shape := ⟨1, ![1]⟩
abbrev S_ : Shape := ⟨0, ![]⟩
abbrev S4096x16384 : Shape := ⟨2, ![4096, 16384]⟩
abbrev S16384x16384 : Shape := ⟨2, ![16384, 16384]⟩
abbrev S16384 : Shape := ⟨1, ![16384]⟩
abbrev S1x524288 : Shape := ⟨2, ![1, 524288]⟩
abbrev S524288 : Shape := ⟨1, ![524288]⟩
abbrev S540672 : Shape := ⟨1, ![540672]⟩
abbrev S540672x1 : Shape := ⟨2, ![540672, 1]⟩
abbrev S540672x5 : Shape := ⟨2, ![540672, 5]⟩
abbrev S1x5 : Shape := ⟨2, ![1, 5]⟩
abbrev S16384x1 : Shape := ⟨2, ![16384, 1]⟩
abbrev S1x1 : Shape := ⟨2, ![1, 1]⟩

abbrev nBuf : Space → Nat
  | .hbm => 150
  | .vmem => 0
  | .smem => 0
  | _ => 0

abbrev hbmTy0_0 (i : Nat) : BufTy := match i % 128 with
  | 0 => ⟨S12288x16384, .f32⟩
  | 1 => ⟨S2x524288, .i32⟩
  | 2 => ⟨S16384x5, .f32⟩
  | 3 => ⟨S5, .f32⟩
  | 4 => ⟨S5x1, .f32⟩
  | 5 => ⟨S1, .f32⟩
  | 6 => ⟨S_, .f32⟩
  | 7 => ⟨S4096x16384, .f32⟩
  | 8 => ⟨S16384x16384, .f32⟩
  | 9 => ⟨S16384x5, .f32⟩
  | 10 => ⟨S16384, .i32⟩
  | 11 => ⟨S1x524288, .i32⟩
  | 12 => ⟨S524288, .i32⟩
  | 13 => ⟨S540672, .i32⟩
  | 14 => ⟨S1x524288, .i32⟩
  | 15 => ⟨S524288, .i32⟩
  | 16 => ⟨S540672, .i32⟩
  | 17 => ⟨S_, .f32⟩
  | 18 => ⟨S540672, .f32⟩
  | 19 => ⟨S_, .f32⟩
  | 20 => ⟨S16384, .f32⟩
  | 21 => ⟨S540672x1, .i32⟩
  | 22 => ⟨S16384, .f32⟩
  | 23 => ⟨S_, .f32⟩
  | 24 => ⟨S16384, .f32⟩
  | 25 => ⟨S16384, .i1⟩
  | 26 => ⟨S_, .f32⟩
  | 27 => ⟨S16384, .f32⟩
  | 28 => ⟨S16384, .f32⟩
  | 29 => ⟨S16384, .f32⟩
  | 30 => ⟨S_, .f32⟩
  | 31 => ⟨S_, .f32⟩
  | 32 => ⟨S16384, .f32⟩
  | 33 => ⟨S16384, .f32⟩
  | 34 => ⟨S_, .i32⟩
  | 35 => ⟨S540672, .i32⟩
  | 36 => ⟨S540672, .i1⟩
  | 37 => ⟨S_, .i32⟩
  | 38 => ⟨S540672, .i32⟩
  | 39 => ⟨S540672, .i32⟩
  | 40 => ⟨S540672, .i32⟩
  | 41 => ⟨S540672x1, .i32⟩
  | 42 => ⟨S540672, .f32⟩
  | 43 => ⟨S_, .i32⟩
  | 44 => ⟨S540672, .i32⟩
  | 45 => ⟨S540672, .i1⟩
  | 46 => ⟨S_, .i32⟩
  | 47 => ⟨S540672, .i32⟩
  | 48 => ⟨S540672, .i32⟩
  | 49 => ⟨S540672, .i32⟩
  | 50 => ⟨S540672x1, .i32⟩
  | 51 => ⟨S540672, .f32⟩
  | 52 => ⟨S540672, .f32⟩
  | 53 => ⟨S_, .i32⟩
  | 54 => ⟨S540672, .i32⟩
  | 55 => ⟨S540672, .i1⟩
  | 56 => ⟨S_, .i32⟩
  | 57 => ⟨S540672, .i32⟩
  | 58 => ⟨S540672, .i32⟩
  | 59 => ⟨S540672, .i32⟩
  | 60 => ⟨S540672x1, .i32⟩
  | 61 => ⟨S540672x5, .f32⟩
  | 62 => ⟨S540672x1, .f32⟩
  | 63 => ⟨S540672x5, .f32⟩
  | 64 => ⟨S540672x5, .f32⟩
  | 65 => ⟨S_, .f32⟩
  | 66 => ⟨S16384x5, .f32⟩
  | 67 => ⟨S540672x1, .i32⟩
  | 68 => ⟨S16384x5, .f32⟩
  | 69 => ⟨S1x5, .f32⟩
  | 70 => ⟨S16384x5, .f32⟩
  | 71 => ⟨S16384x5, .f32⟩
  | 72 => ⟨S_, .f32⟩
  | 73 => ⟨S16384x5, .f32⟩
  | 74 => ⟨S16384x5, .f32⟩
  | 75 => ⟨S16384x1, .f32⟩
  | 76 => ⟨S16384, .i32⟩
  | 77 => ⟨S1x524288, .i32⟩
  | 78 => ⟨S524288, .i32⟩
  | 79 => ⟨S540672, .i32⟩
  | 80 => ⟨S1x524288, .i32⟩
  | 81 => ⟨S524288, .i32⟩
  | 82 => ⟨S540672, .i32⟩
  | 83 => ⟨S_, .f32⟩
  | 84 => ⟨S540672, .f32⟩
  | 85 => ⟨S_, .f32⟩
  | 86 => ⟨S16384, .f32⟩
  | 87 => ⟨S540672x1, .i32⟩
  | 88 => ⟨S16384, .f32⟩
  | 89 => ⟨S_, .f32⟩
  | 90 => ⟨S16384, .f32⟩
  | 91 => ⟨S16384, .i1⟩
  | 92 => ⟨S_, .f32⟩
  | 93 => ⟨S16384, .f32⟩
  | 94 => ⟨S16384, .f32⟩
  | 95 => ⟨S16384, .f32⟩
  | 96 => ⟨S_, .f32⟩
  | 97 => ⟨S_, .f32⟩
  | 98 => ⟨S16384, .f32⟩
  | 99 => ⟨S16384, .f32⟩
  | 100 => ⟨S_, .i32⟩
  | 101 => ⟨S540672, .i32⟩
  | 102 => ⟨S540672, .i1⟩
  | 103 => ⟨S_, .i32⟩
  | 104 => ⟨S540672, .i32⟩
  | 105 => ⟨S540672, .i32⟩
  | 106 => ⟨S540672, .i32⟩
  | 107 => ⟨S540672x1, .i32⟩
  | 108 => ⟨S540672, .f32⟩
  | 109 => ⟨S_, .i32⟩
  | 110 => ⟨S540672, .i32⟩
  | 111 => ⟨S540672, .i1⟩
  | 112 => ⟨S_, .i32⟩
  | 113 => ⟨S540672, .i32⟩
  | 114 => ⟨S540672, .i32⟩
  | 115 => ⟨S540672, .i32⟩
  | 116 => ⟨S540672x1, .i32⟩
  | 117 => ⟨S540672, .f32⟩
  | 118 => ⟨S540672, .f32⟩
  | 119 => ⟨S_, .i32⟩
  | 120 => ⟨S540672, .i32⟩
  | 121 => ⟨S540672, .i1⟩
  | 122 => ⟨S_, .i32⟩
  | 123 => ⟨S540672, .i32⟩
  | 124 => ⟨S540672, .i32⟩
  | 125 => ⟨S540672, .i32⟩
  | 126 => ⟨S540672x1, .i32⟩
  | 127 => ⟨S540672x1, .f32⟩
  | _ => ⟨S12288x16384, .f32⟩

abbrev hbmTy0_1 (i : Nat) : BufTy := match i % 128 with
  | 0 => ⟨S540672x1, .f32⟩
  | 1 => ⟨S540672x1, .f32⟩
  | 2 => ⟨S_, .f32⟩
  | 3 => ⟨S16384x1, .f32⟩
  | 4 => ⟨S540672x1, .i32⟩
  | 5 => ⟨S16384x1, .f32⟩
  | 6 => ⟨S1x1, .f32⟩
  | 7 => ⟨S16384x1, .f32⟩
  | 8 => ⟨S16384x1, .f32⟩
  | 9 => ⟨S_, .f32⟩
  | 10 => ⟨S16384, .f32⟩
  | 11 => ⟨S_, .f32⟩
  | 12 => ⟨S16384, .f32⟩
  | 13 => ⟨S16384, .f32⟩
  | 14 => ⟨S16384x1, .f32⟩
  | 15 => ⟨S16384x1, .f32⟩
  | 16 => ⟨S16384x1, .f32⟩
  | 17 => ⟨S_, .f32⟩
  | 18 => ⟨S16384, .f32⟩
  | 19 => ⟨S16384x1, .f32⟩
  | 20 => ⟨S16384x1, .f32⟩
  | 21 => ⟨S16384x1, .f32⟩
  | _ => ⟨S12288x16384, .f32⟩

abbrev hbmTy (i : Nat) : BufTy := match i / 128 with
  | 0 => hbmTy0_0 i
  | 1 => hbmTy0_1 i
  | _ => ⟨S12288x16384, .f32⟩

abbrev bufTy : (tb : Table) → Fin (tcTables nBuf tb) → BufTy
  | .hbm, ⟨i, _⟩ => hbmTy i
  | _, _ => ⟨S12288x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_c_9 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_13 : Ref sig .tc := ⟨.hbm, 89, rfl⟩
abbrev main_v64 : Ref sig .tc := ⟨.hbm, 90, rfl⟩
abbrev main_v65 : Ref sig .tc := ⟨.hbm, 91, rfl⟩
abbrev main_cst_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_cst_15 : Ref sig .tc := ⟨.hbm, 96, rfl⟩
abbrev main_call2_v0 : Ref sig .tc := ⟨.hbm, 97, rfl⟩
abbrev main_call2_v1 : Ref sig .tc := ⟨.hbm, 98, rfl⟩
abbrev main_v69 : Ref sig .tc := ⟨.hbm, 99, rfl⟩
abbrev main_c_16 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_c_19 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_20 : Ref sig .tc := ⟨.hbm, 119, rfl⟩
abbrev main_v85 : Ref sig .tc := ⟨.hbm, 120, rfl⟩
abbrev main_v86 : Ref sig .tc := ⟨.hbm, 121, rfl⟩
abbrev main_c_21 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_cst_22 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_call3_cst : Ref sig .tc := ⟨.hbm, 137, rfl⟩
abbrev main_call3_v0 : Ref sig .tc := ⟨.hbm, 138, rfl⟩
abbrev main_call3_cst_0 : Ref sig .tc := ⟨.hbm, 139, rfl⟩
abbrev main_call3_v1 : Ref sig .tc := ⟨.hbm, 140, rfl⟩
abbrev main_call3_v2 : Ref sig .tc := ⟨.hbm, 141, rfl⟩
abbrev main_call3_v3 : Ref sig .tc := ⟨.hbm, 142, rfl⟩
abbrev main_call3_v4 : Ref sig .tc := ⟨.hbm, 143, rfl⟩
abbrev main_call3_v5 : Ref sig .tc := ⟨.hbm, 144, rfl⟩
abbrev main_call3_cst_1 : Ref sig .tc := ⟨.hbm, 145, rfl⟩
abbrev main_call3_v6 : Ref sig .tc := ⟨.hbm, 146, rfl⟩
abbrev main_call3_v7 : Ref sig .tc := ⟨.hbm, 147, rfl⟩
abbrev main_call3_v8 : Ref sig .tc := ⟨.hbm, 148, rfl⟩
abbrev main_v100 : Ref sig .tc := ⟨.hbm, 149, rfl⟩

abbrev nD : Nat := 1
abbrev τ : Topo := Topo.v7x

variable {F : FTy → Type} [FloatOps F]

class Facts₀ : Prop where
  bcast_S_S4096x16384 : S_.BroadcastsInDim S4096x16384 (![] : Fin 0 → Fin S4096x16384.rank)
  concatenates_S12288x16384_S4096x16384_S16384x16384_d0 : Shape.Concatenates [S12288x16384, S4096x16384] S16384x16384 0
  slices_S2x524288_S1x524288_0_0 : S2x524288.Slices ![0, 0] S1x524288
  shapeCasts_S1x524288_S524288 : S1x524288.ShapeCasts S524288
  concatenates_S524288_S16384_S540672_d0 : Shape.Concatenates [S524288, S16384] S540672 0
  slices_S2x524288_S1x524288_1_0 : S2x524288.Slices ![1, 0] S1x524288
  bcast_S_S540672 : S_.BroadcastsInDim S540672 (![] : Fin 0 → Fin S540672.rank)
  bcast_S_S16384 : S_.BroadcastsInDim S16384 (![] : Fin 0 → Fin S16384.rank)
  bcast_S540672_S540672x1_0 : S540672.BroadcastsInDim S540672x1 (![0] : Fin 1 → Fin S540672x1.rank)
  bcast_S540672x1_S540672x5_0_1 : S540672x1.BroadcastsInDim S540672x5 (![0, 1] : Fin 2 → Fin S540672x5.rank)
  bcast_S_S16384x5 : S_.BroadcastsInDim S16384x5 (![] : Fin 0 → Fin S16384x5.rank)
  bcast_S5_S1x5_1 : S5.BroadcastsInDim S1x5 (![1] : Fin 1 → Fin S1x5.rank)
  bcast_S1x5_S16384x5_0_1 : S1x5.BroadcastsInDim S16384x5 (![0, 1] : Fin 2 → Fin S16384x5.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x1_0 : S16384.BroadcastsInDim S16384x1 (![0] : Fin 1 → Fin S16384x1.rank)
  dot_S16384x16384_S16384x5_S16384x5_1_0_0_1_n_n_wf : DotDims.WF S16384x16384 S16384x5 S16384x5 [1] [0] [0] [1] [] []
  scatter_S16384_S540672x1_S540672_n_0_0_1_wf : ScatterDims.WF S16384 S540672x1 S540672 [] [0] [0] 1
  gather_S16384_S540672x1_S540672_n_0_n_n_0_1_1_wf : GatherDims.WF S16384 S540672x1 S540672 [] [0] [] [0] [] 1 ![1]
  gather_S16384x5_S540672x1_S540672x5_1_0_n_n_0_1_15_wf : GatherDims.WF S16384x5 S540672x1 S540672x5 [1] [0] [] [0] [] 1 ![1, 5]
  scatter_S16384x5_S540672x1_S540672x5_1_0_0_1_wf : ScatterDims.WF S16384x5 S540672x1 S540672x5 [1] [0] [0] 1
  dot_S16384x5_S5x1_S16384x1_1_0_0_1_n_n_wf : DotDims.WF S16384x5 S5x1 S16384x1 [1] [0] [0] [1] [] []
  gather_S16384x1_S540672x1_S540672x1_1_0_n_n_0_1_11_wf : GatherDims.WF S16384x1 S540672x1 S540672x1 [1] [0] [] [0] [] 1 ![1, 1]
  scatter_S16384x1_S540672x1_S540672x1_1_0_0_1_wf : ScatterDims.WF S16384x1 S540672x1 S540672x1 [1] [0] [0] 1

variable [Facts₀]

def dot_S16384x16384_S16384x5_S16384x5_1_0_0_1_n_n : DotDims S16384x16384 S16384x5 S16384x5 where
  lhsContracting := [1]
  rhsContracting := [0]
  lhsNonContracting := [0]
  rhsNonContracting := [1]
  lhsBatch := []
  rhsBatch := []
  wf := dot_S16384x16384_S16384x5_S16384x5_1_0_0_1_n_n_wf
def scatter_S16384_S540672x1_S540672_n_0_0_1 : ScatterDims S16384 S540672x1 S540672 where
  updateWindowDims := []
  insertedWindowDims := [0]
  scatterDimsToOperandDims := [0]
  indexVectorDim := 1
  wf := scatter_S16384_S540672x1_S540672_n_0_0_1_wf
def gather_S16384_S540672x1_S540672_n_0_n_n_0_1_1 : GatherDims S16384 S540672x1 S540672 where
  offsetDims := []
  collapsedSliceDims := [0]
  operandBatchingDims := []
  startIndicesBatchingDims := []
  startIndexMap := [0]
  indexVectorDim := 1
  sliceSizes := ![1]
  wf := gather_S16384_S540672x1_S540672_n_0_n_n_0_1_1_wf
def gather_S16384x5_S540672x1_S540672x5_1_0_n_n_0_1_15 : GatherDims S16384x5 S540672x1 S540672x5 where
  offsetDims := [1]
  collapsedSliceDims := [0]
  operandBatchingDims := []
  startIndicesBatchingDims := []
  startIndexMap := [0]
  indexVectorDim := 1
  sliceSizes := ![1, 5]
  wf := gather_S16384x5_S540672x1_S540672x5_1_0_n_n_0_1_15_wf
def scatter_S16384x5_S540672x1_S540672x5_1_0_0_1 : ScatterDims S16384x5 S540672x1 S540672x5 where
  updateWindowDims := [1]
  insertedWindowDims := [0]
  scatterDimsToOperandDims := [0]
  indexVectorDim := 1
  wf := scatter_S16384x5_S540672x1_S540672x5_1_0_0_1_wf
def dot_S16384x5_S5x1_S16384x1_1_0_0_1_n_n : DotDims S16384x5 S5x1 S16384x1 where
  lhsContracting := [1]
  rhsContracting := [0]
  lhsNonContracting := [0]
  rhsNonContracting := [1]
  lhsBatch := []
  rhsBatch := []
  wf := dot_S16384x5_S5x1_S16384x1_1_0_0_1_n_n_wf
def gather_S16384x1_S540672x1_S540672x1_1_0_n_n_0_1_11 : GatherDims S16384x1 S540672x1 S540672x1 where
  offsetDims := [1]
  collapsedSliceDims := [0]
  operandBatchingDims := []
  startIndicesBatchingDims := []
  startIndexMap := [0]
  indexVectorDim := 1
  sliceSizes := ![1, 1]
  wf := gather_S16384x1_S540672x1_S540672x1_1_0_n_n_0_1_11_wf
def scatter_S16384x1_S540672x1_S540672x1_1_0_0_1 : ScatterDims S16384x1 S540672x1 S540672x1 where
  updateWindowDims := [1]
  insertedWindowDims := [0]
  scatterDimsToOperandDims := [0]
  indexVectorDim := 1
  wf := scatter_S16384x1_S540672x1_S540672x1_1_0_0_1_wf

class Facts : Prop extends Facts₀ where

variable [Facts]
-- ==== Proof.KRun.lean ====
/-
  The idealized kernel's run, read: every weakly fair execution ends with the program's result at what the host
  operations after the region compute from the region's arrays, and with the argument arrays as launched.
-/
import proofs.«119099_j46462956208716_2_alg».proof.Proof.PKernelIdealFrame

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.GenP

variable {F : FTy → Type} [FloatOps F]
variable (m : (ℓ : Loc nD τ sig) → Buf (Elt F) ℓ) (ρ : Dev nD → PrngReg)

/-- The program's result: the last value of the host operations after the region, run from the region's arrays. -/
def result (c : Dev nD) : Buf (Elt F) ((c.tc : Thread nD τ).loc main_v68) :=
  Pipeline.afterTail₀ cfgs (dats m) 0 (V0 m) [hostOps1, hostOps1_1, hostOps1_2, hostOps1_3] c main_v68

theorem run : θ_run defs (onTc (τ := τ) (main (F := F))) ⟨m, fun _ => 0, ρ⟩ (fun r => ∀ c : Dev nD,
      r.2.mem ((c.tc : Thread nD τ).loc main_v68) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).2 main_v68 (Pipeline.mem_restRefs_of main_v68 (by decide) (by decide)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Hand

end
-- ==== Proof.KBody.lean ====
/-
  What one grid point leaves in the output block. The body adds to the block already there the product of the point's
  x block (1024 × 2048) and w block (2048 × 5); at the first point of each row of the grid (k = 0) it first stores the
  zero block and reads it back. So a first point leaves pay (x, w, 0) and any other point pay (x, w, acc), where pay is
  the body's one arithmetic term: acc + x · w.
-/
import proofs.«119099_j46462956208716_2_alg».proof.Proof.PKernelIdealFrame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.GenP

variable {F : FTy → Type} [FloatOps F]

theorem hz : (![0, 0] : Fin 2 → Nat) = fun _ => 0 := funext fun a => by fin_cases a <;> rfl

/-- A later point of a grid row: the block holds `xo`; the body leaves the arithmetic term of the two input blocks and `xo`. -/
theorem out_B (c : Dev nD) (i : grid0.Coords) (a2 : Memref sig .tc .vmem S1024x2048 .f32) (h2 : a2.IsWhole)
    (a3 : Memref sig .tc .vmem S2048x5 .f32) (h3 : a3.IsWhole) (a4 : Memref sig .tc .vmem S1024x5 .f32) (h4 : a4.IsWhole)
    (hc : ¬cond0_0 i) (x0 : Vec F S1024x2048 .f32) (x1 : Vec F S2048x5 .f32) (xo : Vec F S1024x5 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread, View.ld_unit_zero (S := S1024x2048) hz,
    View.ld_unit_zero (S := S2048x5) hz, View.ld_unit_zero (S := S1024x5) hz]

/-- A first point of a grid row: the body stores the zero block, reads it back, and leaves the arithmetic term of the two
    input blocks and the zero block. -/
theorem out_A (c : Dev nD) (i : grid0.Coords) (a2 : Memref sig .tc .vmem S1024x2048 .f32) (h2 : a2.IsWhole)
    (a3 : Memref sig .tc .vmem S2048x5 .f32) (h3 : a3.IsWhole) (a4 : Memref sig .tc .vmem S1024x5 .f32) (h4 : a4.IsWhole)
    (hc : cond0_0 i) (x0 : Vec F S1024x2048 .f32) (x1 : Vec F S2048x5 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1024x5) hz, View.readCov_unit_zero (S := S1024x5) _ hz]
  simp only [View.readAt_eq_ld, h2.read_unread, h3.read_unread, View.ld_unit_zero (S := S1024x2048) hz,
    View.ld_unit_zero (S := S2048x5) hz]

end Cert.KernelIdeal.Hand

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.KPay.lean ====
/-
  The body's arithmetic over the extended reals, entry by entry. The narrowing of the two input blocks to bf16 is the
  identity on extended reals and the matrix unit's product into a zero accumulator is the plain sum over the 2048
  contraction indices, so the term the body stores is acc (p, q) + Σ k, x (p, k) · w (k, q); the block stored at a first
  point is zero.
-/
import proofs.«119099_j46462956208716_2_alg».proof.Proof.Gen.KernelIdeal.Skeleton
import proofs.«119099_j46462956208716_2_alg».proof.Proof.LibDotRows
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Hand

open Cert.KernelIdeal Cert.KernelIdeal.Gen Cert.Hand

/-- The block a first point stores before accumulating is zero everywhere. -/
theorem pay1_apply (j : S1024x5.Idx) : k0_pay1 (F := Ideal) j = 0 := by
  unfold k0_pay1
  show Ideal.ofBits .f32 0x00000000#32 = 0
  exact Ideal.ofBits_zero_f32

/-- The matrix unit's product of a 1024 × 2048 block and a 2048 × 5 block into a zero accumulator, at entry (p, q). -/
theorem matmul_zero_apply (l : FVec Ideal S1024x2048 .bf16) (r : FVec Ideal S2048x5 .bf16) (p : Fin 1024) (q : Fin 5) :
    matmul dot_S1024x2048_S2048x5_S1024x5_1_0_0_1_n_n none l r (constant S1024x5 .f32 0x00000000#32) (ix2 p q)
      = ∑ k : Fin 2048, l (ix2 p k) * r (ix2 k q) := by
  refine (Ideal.matmul_constant_zero_apply dot_S1024x2048_S2048x5_S1024x5_1_0_0_1_n_n none l r (ix2 p q)).trans ?_
  dot_rows dot_S1024x2048_S2048x5_S1024x5_1_0_0_1_n_n S1024x2048 S2048x5 2048

/-- The term the body stores, at entry (p, q): what the block held plus the product's entry. -/
theorem pay2_apply (x0 : FVec Ideal S1024x2048 .f32) (x1 : FVec Ideal S2048x5 .f32) (acc : FVec Ideal S1024x5 .f32)
    (p : Fin 1024) (q : Fin 5) :
    k0_pay2 x0 x1 acc (ix2 p q) = acc (ix2 p q) + ∑ k : Fin 2048, x0 (ix2 p k) * x1 (ix2 k q) := by
  unfold k0_pay2
  show (shapeCast S1024x5 acc shapeCasts_S1024x5_S1024x5) (ix2 p q)
      + matmul dot_S1024x2048_S2048x5_S1024x5_1_0_0_1_n_n none (truncf .bf16 x0 bitsLt_bf16_f32) (truncf .bf16 x1 bitsLt_bf16_f32)
          (constant S1024x5 .f32 0x00000000#32) (ix2 p q) = _
  rw [matmul_zero_apply, shapeCast_self]
  rfl

end Cert.KernelIdeal.Hand

end
-- ==== Proof.LibSumSplit.lean ====
/-
  Sums regrouped by tiles, and a host sum over the last two axes.

  • An index below N = a · b is i · b + r for exactly one tile `i < a` and entry `r < b` (`tileIdx`), so in a
    commutative monoid a sum over `Fin N` is the sum over the tiles of the sums within each tile (`sum_tiles`): what
    joins a whole-axis sum with the same sum taken block by block.
  • A host sum of an `[a, n, m]` array of extended reals over its last two axes, read at batch `j`, is the initial
    value plus the double sum over the two reduced coordinates (`hostReduceAdd_last_two`): the indices that reduce to
    `j` are exactly the `(j, k, l)`.
-/
import Idealize.ShloMosaic.Lib.ValueIdx
import Idealize.ShloMosaic.PureOps.Ideal.Laws
import Idealize.ShloMosaic.PureOps.Reduce

noncomputable section

namespace Cert.PointDist

open Idealize.ShloMosaic Idealize.ShloMosaic.ValueIdx

/-- Entry `r` of tile `i`, of `a` tiles of `b` entries, as an index below `N = a · b`. -/
def tileIdx {a b N : ℕ} (h : a * b = N) (i : Fin a) (r : Fin b) : Fin N :=
  ⟨i.val * b + r.val, by
    have hi := i.isLt; have hr := r.isLt
    calc i.val * b + r.val < i.val * b + b := Nat.add_lt_add_left hr _
      _ = (i.val + 1) * b := (Nat.succ_mul _ _).symm
      _ ≤ a * b := Nat.mul_le_mul_right _ hi
      _ = N := h⟩

theorem tileIdx_val {a b N : ℕ} (h : a * b = N) (i : Fin a) (r : Fin b) : (tileIdx h i r).val = i.val * b + r.val := rfl

/-- A sum over `N = a · b` entries is the sum over the tiles of the sums within each tile. -/
theorem sum_tiles {M : Type*} [AddCommMonoid M] {a b N : ℕ} (h : a * b = N) (f : Fin N → M) :
    ∑ n, f n = ∑ i : Fin a, ∑ r : Fin b, f (tileIdx h i r) := by
  subst h
  rw [← finProdFinEquiv.sum_comp, Fintype.sum_prod_type]
  refine Finset.sum_congr rfl fun i _ => Finset.sum_congr rfl fun r _ => congrArg f (Fin.ext ?_)
  show r.val + b * i.val = i.val * b + r.val
  rw [Nat.mul_comm, Nat.add_comm]

/-- The host's sum of an `[a, n, m]` array over its last two axes, at batch `j`: the initial value plus the double
    sum over the two reduced coordinates. The indices that drop to `j` are exactly the `(j, n, m)`. -/
theorem hostReduceAdd_last_two {a n m : ℕ} (h : (⟨3, ![a, n, m]⟩ : Shape).ReducesTo [1, 2] (⟨1, ![a]⟩ : Shape))
    (x : (⟨3, ![a, n, m]⟩ : Shape).Idx → EReal) (init : EReal) (j : Fin a) :
    Ideal.hostReduceAdd h x init (ix1 j) = init + ∑ k : Fin n, ∑ l : Fin m, x (ix3 j k l) := by
  unfold Ideal.hostReduceAdd
  refine congrArg (init + ·) ?_
  rw [← Fintype.sum_prod_type']
  -- the one kept axis is the batch axis
  have hdrop : ∀ i : (⟨3, ![a, n, m]⟩ : Shape).Idx, ((h.drop i) 0).val = (i 0).val := fun i => rfl
  have hleft : ∀ i ∈ Finset.univ.filter (fun i => h.drop i = ix1 j), ix3 j (i 1) (i 2) = i := by
    intro i hi
    have hj := (Finset.mem_filter.1 hi).2
    have h0 : (i 0).val = j.val := by
      have := congrArg (fun y : (⟨1, ![a]⟩ : Shape).Idx => (y 0).val) hj
      exact (hdrop i).symm.trans this
    funext c; apply Fin.ext
    match c with
    | ⟨0, _⟩ => exact h0.symm
    | ⟨1, _⟩ => rfl
    | ⟨2, _⟩ => rfl
  refine Finset.sum_nbij' (fun i => (i 1, i 2)) (fun p => ix3 j p.1 p.2) ?_ ?_ ?_ ?_ ?_
  · intro i _; exact Finset.mem_univ _
  · intro p _
    refine Finset.mem_filter.2 ⟨Finset.mem_univ _, ?_⟩
    funext b; apply Fin.ext
    match b with
    | ⟨0, _⟩ => exact hdrop _
  · intro i hi; exact hleft i hi
  · intro p _; rfl
  · intro i hi; exact congrArg x (hleft i hi).symm

end Cert.PointDist

end
-- ==== Proof.MatSpec.lean ====
/-
  The first layer's linear map as one function: the product of a 12288 × 16384 matrix with a 16384 × 5 matrix over the
  extended reals, entry (r, j) the sum over k of x (r, k) · w (k, j). The contraction axis splits into 8 tiles of 2048
  and the rows into 12 tiles of 1024; addition of extended reals is commutative and associative, so the sum over the
  whole axis is the sum over the tiles of the sums within each tile (no finiteness is needed).
-/
import Idealize.ShloMosaic.PureOps.Ideal
import Idealize.ShloMosaic.Lib.ValueIdx
import proofs.«119099_j46462956208716_2_alg».proof.Proof.LibSumSplit

noncomputable section

open scoped BigOperators

namespace Cert.MatSpec

open Idealize.ShloMosaic Idealize.ShloMosaic.ValueIdx Cert.PointDist

/-- The matrix product, entry by entry. -/
def prod (x : (⟨2, ![12288, 16384]⟩ : Shape).Idx → EReal) (w : (⟨2, ![16384, 5]⟩ : Shape).Idx → EReal) :
    (⟨2, ![12288, 5]⟩ : Shape).Idx → EReal :=
  fun i => ∑ k : Fin 16384, x (ix2 (i 0) k) * w (ix2 k (i 1))

theorem prod_apply (x : (⟨2, ![12288, 16384]⟩ : Shape).Idx → EReal) (w : (⟨2, ![16384, 5]⟩ : Shape).Idx → EReal)
    (r : Fin 12288) (j : Fin 5) : prod x w (ix2 r j) = ∑ k : Fin 16384, x (ix2 r k) * w (ix2 k j) := rfl

/-- Row `p` of row tile `i` (12 tiles of 1024 rows). -/
abbrev row (i : Fin 12) (p : Fin 1024) : Fin 12288 := tileIdx (by norm_num : 12 * 1024 = 12288) i p
/-- Entry `k` of contraction tile `kb` (8 tiles of 2048). -/
abbrev col (kb : Fin 8) (k : Fin 2048) : Fin 16384 := tileIdx (by norm_num : 8 * 2048 = 16384) kb k

/-- One tile's share of entry (row i p, j): the sum over the 2048 contraction indices of tile `kb`. -/
def part (x : (⟨2, ![12288, 16384]⟩ : Shape).Idx → EReal) (w : (⟨2, ![16384, 5]⟩ : Shape).Idx → EReal)
    (i : Fin 12) (kb : Fin 8) (p : Fin 1024) (j : Fin 5) : EReal :=
  ∑ k : Fin 2048, x (ix2 (row i p) (col kb k)) * w (ix2 (col kb k) j)

/-- The product's entry is the sum of the eight tiles' shares. -/
theorem prod_eq_sum_parts (x : (⟨2, ![12288, 16384]⟩ : Shape).Idx → EReal) (w : (⟨2, ![16384, 5]⟩ : Shape).Idx → EReal)
    (i : Fin 12) (p : Fin 1024) (j : Fin 5) : prod x w (ix2 (row i p) j) = ∑ kb : Fin 8, part x w i kb p j := by
  rw [prod_apply, sum_tiles (by norm_num : 8 * 2048 = 16384)]
  rfl

end Cert.MatSpec

end
-- ==== Proof.KBlocks.lean ====
/-
  Which entries of x and w a grid point reads. Point t = 8 i + kb of the 12 × 8 grid stages rows 1024 i … 1024 i + 1023
  and columns 2048 kb … 2048 kb + 2047 of x, and rows 2048 kb … 2048 kb + 2047 of w; no host operation before the
  region writes either array, so the blocks are read off the arrays as launched.
-/
import proofs.«119099_j46462956208716_2_alg».proof.Proof.PKernelIdealFrame
import proofs.«119099_j46462956208716_2_alg».proof.Proof.MatSpec
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.GenP Cert.MatSpec Cert.PointDist

variable {F : FTy → Type} [FloatOps F]
variable (m : (ℓ : Loc nD τ sig) → Buf (Elt F) ℓ)

/-- The printed index maps over the grid: x's block index is (t / 8, t % 8), w's (t % 8, 0), the output's (t / 8, 0). -/
theorem idx_facts : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Entry (p, k) of x's block at point 8 i + kb is x at row 1024 i + p, column 2048 kb + k. -/
theorem iblk0_apply (c : Dev nD) (t : Fin cfg0.N) (i : Fin 12) (kb : Fin 8) (ht : t.val = 8 * i.val + kb.val)
    (p : Fin 1024) (k : Fin 2048) :
    (iblk m c 0 t : Vec F S1024x2048 .f32) (ix2 p k) = m ((c : Thread nD τ).loc main_arg0) (ix2 (row i p) (col kb k)) := by
  obtain ⟨e0, e1, -⟩ := idx_facts t
  have hi := i.isLt; have hkb := kb.isLt
  unfold iblk
  rw [View.read_apply]
  show V m c main_arg0 _ = _
  rw [V_main_arg0]
  congr 1
  funext a; apply Fin.ext
  match a with
  | ⟨0, _⟩ => show win0_0.index t (0 : Fin 2) * 1024 + 1 * p.val = i.val * 1024 + p.val; omega
  | ⟨1, _⟩ => show win0_0.index t (1 : Fin 2) * 2048 + 1 * k.val = kb.val * 2048 + k.val; omega

/-- Entry (k, q) of w's block at point 8 i + kb is w at row 2048 kb + k, column q. -/
theorem iblk1_apply (c : Dev nD) (t : Fin cfg0.N) (i : Fin 12) (kb : Fin 8) (ht : t.val = 8 * i.val + kb.val)
    (k : Fin 2048) (q : Fin 5) :
    (iblk m c 1 t : Vec F S2048x5 .f32) (ix2 k q) = m ((c : Thread nD τ).loc main_arg2) (ix2 (col kb k) q) := by
  obtain ⟨-, -, e2, e3, -⟩ := idx_facts t
  have hi := i.isLt; have hkb := kb.isLt
  unfold iblk
  rw [View.read_apply]
  show V m c main_arg2 _ = _
  rw [V_main_arg2]
  congr 1
  funext a; apply Fin.ext
  match a with
  | ⟨0, _⟩ => show win0_1.index t (0 : Fin 2) * 2048 + 1 * k.val = kb.val * 2048 + k.val; omega
  | ⟨1, _⟩ => show win0_1.index t (1 : Fin 2) * 5 + 1 * q.val = q.val; omega

end Cert.KernelIdeal.Hand

end
-- ==== Proof.LibChainSum.lean ====
/-
  A running total is a sum. If `g 0 = f 0` and `g (n + 1) = g n + f (n + 1)` for the terms `f` of a finite
  sequence, then `g n` is the sum of the first `n + 1` terms (`chain_eq_sum`): the closed form of an
  accumulator that is reset at the first step and added to at every later one.
-/
import Mathlib.Algebra.BigOperators.Fin

namespace Cert.ChainSum

/-- A running total that starts at the first term and adds one term per step is the sum of the terms so far. -/
theorem chain_eq_sum {M : Type*} [AddCommMonoid M] {N : ℕ} (f : Fin N → M) (g : (n : ℕ) → n < N → M)
    (h0 : ∀ h, g 0 h = f ⟨0, h⟩)
    (hs : ∀ n (h : n + 1 < N), g (n + 1) h = g n (Nat.lt_of_succ_lt h) + f ⟨n + 1, h⟩) :
    ∀ (n : ℕ) (h : n < N), g n h = ∑ i : Fin (n + 1), f ⟨i.val, lt_of_le_of_lt (Nat.le_of_lt_succ i.isLt) h⟩
  | 0, h => by
    rw [h0 h, Fin.sum_univ_one]
    rfl
  | n + 1, h => by
    rw [hs n h, chain_eq_sum f g h0 hs n (Nat.lt_of_succ_lt h)]
    exact (Fin.sum_univ_castSucc
      (fun i : Fin (n + 1 + 1) => f ⟨i.val, lt_of_le_of_lt (Nat.le_of_lt_succ i.isLt) h⟩)).symm

end Cert.ChainSum
-- ==== Proof.KChain.lean ====
/-
  The accumulation along a grid row. Within row i of the grid the output block is reset at kb = 0 and every point adds
  its tile's share, so after point 8 i + kk the block's entry (p, q) is the sum of the shares of tiles 0 … kk: a running
  total that starts at the first term and adds one term per step is the sum so far.
-/
import proofs.«119099_j46462956208716_2_alg».proof.Proof.KBody
import proofs.«119099_j46462956208716_2_alg».proof.Proof.KPay
import proofs.«119099_j46462956208716_2_alg».proof.Proof.KBlocks
import proofs.«119099_j46462956208716_2_alg».proof.Proof.LibChainSum

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.GenP Cert.MatSpec Cert.PointDist

variable (m : (ℓ : Loc nD τ sig) → Buf (Elt Ideal) ℓ)

/-- Every point 8 i + kk with kk < 8 is a point of the grid. -/
theorem pt_lt (i : Fin 12) (kk : ℕ) (hk : kk < 8) : 8 * i.val + kk < cfg0.N := by
  have := i.isLt
  show 8 * i.val + kk < grid0.N
  rw [N_0]; omega

/-- The block's contents depend on the point only, not on how its number is written. -/
theorem outsAt0_congr (c : Dev nD) {n n' : ℕ} (e : n = n') (h : n < cfg0.N) (h' : n' < cfg0.N) :
    outsAt0 m c n h = outsAt0 m c n' h' := by subst e; rfl

/-- If two blocks hold tile kb's entries of x (row 1024 i + p) and of w (column q), their products summed over the tile are
    tile kb's share. -/
theorem blocks_sum (x0 : FVec Ideal S1024x2048 .f32) (x1 : FVec Ideal S2048x5 .f32)
    (X : (⟨2, ![12288, 16384]⟩ : Shape).Idx → EReal) (W : (⟨2, ![16384, 5]⟩ : Shape).Idx → EReal)
    (i : Fin 12) (kb : Fin 8) (p : Fin 1024) (q : Fin 5)
    (h0 : ∀ k : Fin 2048, x0 (ix2 p k) = X (ix2 (row i p) (col kb k)))
    (h1 : ∀ k : Fin 2048, x1 (ix2 k q) = W (ix2 (col kb k) q)) :
    ∑ k : Fin 2048, x0 (ix2 p k) * x1 (ix2 k q) = part X W i kb p q :=
  Finset.sum_congr rfl fun k _ => by rw [h0 k, h1 k]

/-- After point 8 i + kk the output block's entry (p, q) is the sum of the shares of tiles 0 … kk. -/
theorem outsAt_apply (c : Dev nD) (i : Fin 12) (p : Fin 1024) (q : Fin 5) (kk : ℕ) (hk : kk < 8) :
    outsAt0 m c (8 * i.val + kk) (pt_lt i kk hk) (ix2 p q)
      = ∑ j : Fin (kk + 1), part (m ((c : Thread nD τ).loc main_arg0)) (m ((c : Thread nD τ).loc main_arg2)) i
          ⟨j.val, lt_of_le_of_lt (Nat.le_of_lt_succ j.isLt) hk⟩ p q := by
  refine Cert.ChainSum.chain_eq_sum (N := 8)
    (fun kb => part (m ((c : Thread nD τ).loc main_arg0)) (m ((c : Thread nD τ).loc main_arg2)) i kb p q)
    (fun kk hk => outsAt0 m c (8 * i.val + kk) (pt_lt i kk hk) (ix2 p q)) ?_ ?_ kk hk
  · intro h
    have hmod : (⟨8 * i.val + 0, pt_lt i 0 h⟩ : Fin cfg0.N).val % 8 = 0 := by show (8 * i.val + 0) % 8 = 0; omega
    refine (congrFun (outsAt0_A m c ⟨8 * i.val + 0, pt_lt i 0 h⟩ hmod) (ix2 p q)).trans ?_
    rw [out_A]
    refine (pay2_apply _ _ _ p q).trans ?_
    rw [pay1_apply, zero_add]
    exact blocks_sum _ _ _ _ i ⟨0, h⟩ p q
      (fun k => iblk0_apply m c ⟨8 * i.val + 0, pt_lt i 0 h⟩ i ⟨0, h⟩ rfl p k)
      (fun k => iblk1_apply m c ⟨8 * i.val + 0, pt_lt i 0 h⟩ i ⟨0, h⟩ rfl k q)
  · intro n h
    have hmod : ¬(⟨8 * i.val + (n + 1), pt_lt i (n + 1) h⟩ : Fin cfg0.N).val % 8 = 0 := by
      show ¬(8 * i.val + (n + 1)) % 8 = 0; omega
    refine (congrFun (outsAt0_B m c ⟨8 * i.val + (n + 1), pt_lt i (n + 1) h⟩ hmod) (ix2 p q)).trans ?_
    rw [out_B]
    refine (pay2_apply _ _ _ p q).trans ?_
    rw [blocks_sum _ _ _ _ i ⟨n + 1, h⟩ p q
      (fun k => iblk0_apply m c ⟨8 * i.val + (n + 1), pt_lt i (n + 1) h⟩ i ⟨n + 1, h⟩ rfl p k)
      (fun k => iblk1_apply m c ⟨8 * i.val + (n + 1), pt_lt i (n + 1) h⟩ i ⟨n + 1, h⟩ rfl k q)]
    refine congrArg (· + _) ?_
    exact congrFun (outsAt0_congr m c (by show 8 * i.val + (n + 1) - 1 = 8 * i.val + n; omega) _ _) (ix2 p q)

/-- After the last point of grid row i the block's entry (p, q) is the product's entry at row 1024 i + p. -/
theorem outsAt_last (c : Dev nD) (i : Fin 12) (p : Fin 1024) (q : Fin 5) :
    outsAt0 m c (8 * i.val + 7) (pt_lt i 7 (by norm_num)) (ix2 p q)
      = prod (m ((c : Thread nD τ).loc main_arg0)) (m ((c : Thread nD τ).loc main_arg2)) (ix2 (row i p) q) := by
  rw [outsAt_apply m c i p q 7 (by norm_num), prod_eq_sum_parts]

end Cert.KernelIdeal.Hand

end
-- ==== Proof.KFinal.lean ====
/-
  The region's result array. The output block of grid row i is written back once, after the row's last point
  (t = 8 i + 7), to rows 1024 i … 1024 i + 1023 of the 12288 × 5 array; by then it holds the product's entries of those
  rows. The twelve written blocks tile the array, so the array ends holding the product.
-/
import proofs.«119099_j46462956208716_2_alg».proof.Proof.KChain

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.GenP Cert.MatSpec Cert.PointDist

variable (m : (ℓ : Loc nD τ sig) → Buf (Elt Ideal) ℓ)

/-- The product of the launched x and w, as contents of the region's result array. -/
abbrev G (c : Dev nD) : Buf (Elt Ideal) ((c : Thread nD τ).loc main_v32) :=
  prod (m ((c : Thread nD τ).loc main_arg0)) (m ((c : Thread nD τ).loc main_arg2))

/-- Reading block t of any contents of the result array at a place of the block is reading the contents at the place's
    position in the array. -/
theorem read_blk (c : Dev nD) (Gf : Buf (Elt Ideal) ((c : Thread nD τ).loc main_v32)) (t : Fin cfg0.N) (y : S1024x5.Idx) :
    ((cfg0.win 2).blk t).view.read (Elt Ideal) Gf y = Gf (((cfg0.win 2).blk t).view.emb y) := by
  rw [View.read_apply]
  rfl

/-- What a write-back writes is the product's block at the written rows. -/
theorem flushed_eq (c : Dev nD) (t : Fin cfg0.N) (hf : (cfg0.win 2).flush t = true) :
    (dats m 0 c).flushed 2 t = ((cfg0.win 2).blk t).view.read (Elt Ideal) (G m c) := by
  have h7 : t.val % 8 = 7 := (flush0_2 t).mp hf
  have hN : t.val < 96 := lt_of_lt_of_eq t.isLt N_0
  obtain ⟨-, -, -, -, e4, e5⟩ := idx_facts t
  have hi : t.val / 8 < 12 := by omega
  have e : t.val = 8 * (⟨t.val / 8, hi⟩ : Fin 12).val + 7 := by show t.val = 8 * (t.val / 8) + 7; omega
  show (cfg0.win 2).cut (grid0.coords t) ((dats m 0 c).after 2 t) = _
  rw [after0_2]
  refine funext fun (y : S1024x5.Idx) => ?_
  obtain ⟨p, q, rfl⟩ : ∃ (p : Fin 1024) (q : Fin 5), y = ix2 p q := ⟨y 0, y 1, eq_ix2 y⟩
  rw [read_blk c (G m c) t (ix2 p q)]
  show outsAt0 m c t.val t.isLt (ix2 p q) = _
  rw [outsAt0_congr m c e t.isLt (pt_lt ⟨t.val / 8, hi⟩ 7 (by norm_num)), outsAt_last m c ⟨t.val / 8, hi⟩ p q]
  have hidx : (ix2 (row ⟨t.val / 8, hi⟩ p) q : S12288x5.Idx) = ((cfg0.win 2).blk t).view.emb (ix2 p q : S1024x5.Idx) := by
    funext a; apply Fin.ext
    match a with
    | ⟨0, _⟩ => show (t.val / 8) * 1024 + p.val = win0_2.index t (0 : Fin 2) * 1024 + 1 * p.val; omega
    | ⟨1, _⟩ => show q.val = win0_2.index t (1 : Fin 2) * 5 + 1 * q.val; omega
  exact congrArg (G m c) hidx

/-- Every entry of the array lies in the block some write-back writes: row r in the block of grid row r / 1024. -/
theorem cover (c : Dev nD) (i : S12288x5.Idx) :
    ∃ t : Fin cfg0.N, (cfg0.win 2).flush t = true ∧ i ∈ ((cfg0.win 2).blk t).view.set := by
  have h0 : (i 0).val < 12288 := (i 0).isLt
  have h1 : (i 1).val < 5 := (i 1).isLt
  have hlt : 8 * ((i 0).val / 1024) + 7 < cfg0.N := by show _ < grid0.N; rw [N_0]; omega
  obtain ⟨-, -, -, -, e4, e5⟩ := idx_facts ⟨8 * ((i 0).val / 1024) + 7, hlt⟩
  have e4' : win0_2.index ⟨8 * ((i 0).val / 1024) + 7, hlt⟩ (0 : Fin 2) = (8 * ((i 0).val / 1024) + 7) / 8 := e4
  refine ⟨⟨8 * ((i 0).val / 1024) + 7, hlt⟩, (flush0_2 _).mpr (by show (8 * ((i 0).val / 1024) + 7) % 8 = 7; omega), ?_⟩
  show i ∈ ((View.whole main_v32).slice (win0_2.rect ⟨8 * ((i 0).val / 1024) + 7, hlt⟩)).set
  rw [View.set_slice_whole, Rect.mem_set_unit]
  intro a
  match a with
  | ⟨0, _⟩ =>
    show win0_2.index ⟨8 * ((i 0).val / 1024) + 7, hlt⟩ (0 : Fin 2) * 1024 ≤ (i 0).val
      ∧ (i 0).val < win0_2.index ⟨8 * ((i 0).val / 1024) + 7, hlt⟩ (0 : Fin 2) * 1024 + 1024
    omega
  | ⟨1, _⟩ =>
    show win0_2.index ⟨8 * ((i 0).val / 1024) + 7, hlt⟩ (1 : Fin 2) * 5 ≤ (i 1).val
      ∧ (i 1).val < win0_2.index ⟨8 * ((i 0).val / 1024) + 7, hlt⟩ (1 : Fin 2) * 5 + 5
    omega

/-- The region's result array ends holding the product. -/
theorem final (c : Dev nD) : (dats m 0 c).arrAt 2 cfg0.N = G m c :=
  (dats m 0 c).arrAt_eq_of_cover 2 (G m c) (flushed_eq m c) (cover c)

end Cert.KernelIdeal.Hand

end
-- ==== Proof.PadDot.lean ====
/-
  Padding commutes with the product. The kernel's program pads the 12288 × 5 product with 4096 zero rows; the
  reference pads x with 4096 zero rows and multiplies the 16384 × 16384 matrix by w. Entry by entry: a row below 12288
  reads the same sum on both sides, and a padded row is zero on the left and a sum of products 0 · w (k, j) = 0 on the
  right (zero times any extended real is zero, so no finiteness is needed).
-/
import proofs.«119099_j46462956208716_2_alg».proof.Proof.Gen.KernelIdeal
import proofs.«119099_j46462956208716_2_alg».proof.Proof.Gen.ReferenceIdeal
import proofs.«119099_j46462956208716_2_alg».proof.Proof.MatSpec
import proofs.«119099_j46462956208716_2_alg».proof.Proof.LibDotRows
import Idealize.ShloMosaic.PureOps.Ideal.Laws
import Idealize.ShloMosaic.Lib.ValueIdx
import Idealize.ShloMosaic.Lib.IdealHost
import Idealize.ShloMosaic.Lib.Pipeline.Value

noncomputable section

open scoped BigOperators
open Idealize.ShloMosaic Idealize.ShloMosaic.ValueIdx

namespace Cert.Bridge

open Cert.MatSpec Cert.Hand

/-- The zero block a host program pads with, at any shape: zero everywhere. -/
theorem zeros_apply {T : Shape} (h : (⟨0, ![]⟩ : Shape).BroadcastsInDim T ![]) (j : T.Idx) :
    broadcastInDim T ![] h (constant (F := Ideal) (⟨0, ![]⟩ : Shape) .f32 0x00000000#32) j = 0 := by
  rw [broadcastInDim_scalar_apply]
  show Ideal.ofBits .f32 0x00000000#32 = 0
  exact Ideal.ofBits_zero_f32

/-- x padded with zero rows, read at (r, k): x below row 12288, zero from there on. -/
theorem padx_apply (x : FVec Ideal Cert.ReferenceIdeal.S12288x16384 .f32) (r : Fin 16384) (k : Fin 16384) :
    concatenate Cert.ReferenceIdeal.S16384x16384 0 [⟨Cert.ReferenceIdeal.S12288x16384, x⟩,
        ⟨Cert.ReferenceIdeal.S4096x16384, broadcastInDim Cert.ReferenceIdeal.S4096x16384 ![] Cert.ReferenceIdeal.Facts₀.bcast_S_S4096x16384
          (constant (F := Ideal) Cert.ReferenceIdeal.S_ .f32 0x00000000#32)⟩]
        Cert.ReferenceIdeal.Facts₀.concatenates_S12288x16384_S4096x16384_S16384x16384_d0 (ix2 r k)
      = if h : r.val < 12288 then x (ix2 ⟨r.val, h⟩ k) else 0 := by
  split
  · next h =>
    exact concatenate_pair_apply_left (t := Cert.ReferenceIdeal.S16384x16384) (s₁ := Cert.ReferenceIdeal.S12288x16384)
      (s₂ := Cert.ReferenceIdeal.S4096x16384) (0 : Fin 2) _ _ _ (ix2 r k) rfl
      (ix2 (⟨r.val, h⟩ : Fin 12288) k : Cert.ReferenceIdeal.S12288x16384.Idx)
      (fun b => match b with | ⟨0, _⟩ => rfl | ⟨1, _⟩ => rfl)
  · next h =>
    have hr := r.isLt
    have ha : r.val - 12288 + 12288 = r.val := by omega
    refine (concatenate_pair_apply_right (t := Cert.ReferenceIdeal.S16384x16384) (s₁ := Cert.ReferenceIdeal.S12288x16384)
      (s₂ := Cert.ReferenceIdeal.S4096x16384) (0 : Fin 2) _ _ _ (ix2 r k) rfl rfl
      (ix2 (⟨r.val - 12288, by omega⟩ : Fin 4096) k : Cert.ReferenceIdeal.S4096x16384.Idx)
      (fun b hb => match b, hb with | ⟨0, _⟩, hb => absurd rfl hb | ⟨1, _⟩, _ => rfl)
      ha).trans ?_
    exact zeros_apply _ _

/-- The padded product equals the product with the padded x. -/
theorem pad_dot (x : FVec Ideal Cert.ReferenceIdeal.S12288x16384 .f32) (w : FVec Ideal Cert.ReferenceIdeal.S16384x5 .f32) :
    concatenate Cert.KernelIdeal.S16384x5 0 [⟨Cert.KernelIdeal.S12288x5, prod x w⟩,
        ⟨Cert.KernelIdeal.S4096x5, broadcastInDim Cert.KernelIdeal.S4096x5 ![] Cert.KernelIdeal.Facts₀.bcast_S_S4096x5
          (constant (F := Ideal) Cert.KernelIdeal.S_ .f32 0x00000000#32)⟩]
        Cert.KernelIdeal.Facts₀.concatenates_S12288x5_S4096x5_S16384x5_d0
      = Host.dotGeneral (F := Ideal) Cert.ReferenceIdeal.dot_S16384x16384_S16384x5_S16384x5_1_0_0_1_n_n none
          (concatenate Cert.ReferenceIdeal.S16384x16384 0 [⟨Cert.ReferenceIdeal.S12288x16384, x⟩,
            ⟨Cert.ReferenceIdeal.S4096x16384, broadcastInDim Cert.ReferenceIdeal.S4096x16384 ![] Cert.ReferenceIdeal.Facts₀.bcast_S_S4096x16384
              (constant (F := Ideal) Cert.ReferenceIdeal.S_ .f32 0x00000000#32)⟩]
            Cert.ReferenceIdeal.Facts₀.concatenates_S12288x16384_S4096x16384_S16384x16384_d0) w := by
  refine funext fun (j : Cert.ReferenceIdeal.S16384x5.Idx) => ?_
  obtain ⟨p, q, rfl⟩ : ∃ (p : Fin 16384) (q : Fin 5), j = ix2 p q := ⟨j 0, j 1, eq_ix2 j⟩
  simp only [Host.dotGeneral]
  rw [Ideal.dotGeneral_apply]
  generalize hl : concatenate Cert.ReferenceIdeal.S16384x16384 0 [⟨Cert.ReferenceIdeal.S12288x16384, x⟩,
      ⟨Cert.ReferenceIdeal.S4096x16384, broadcastInDim Cert.ReferenceIdeal.S4096x16384 ![] Cert.ReferenceIdeal.Facts₀.bcast_S_S4096x16384
        (constant (F := Ideal) Cert.ReferenceIdeal.S_ .f32 0x00000000#32)⟩]
      Cert.ReferenceIdeal.Facts₀.concatenates_S12288x16384_S4096x16384_S16384x16384_d0 = l
  generalize hr' : w = r
  have key : ∑ c, l (Cert.ReferenceIdeal.dot_S16384x16384_S16384x5_S16384x5_1_0_0_1_n_n.lhsIdx (ix2 p q) c)
        * r (Cert.ReferenceIdeal.dot_S16384x16384_S16384x5_S16384x5_1_0_0_1_n_n.rhsIdx (ix2 p q) c)
      = ∑ k : Fin 16384, l (ix2 p k) * r (ix2 k q) := by
    dot_rows Cert.ReferenceIdeal.dot_S16384x16384_S16384x5_S16384x5_1_0_0_1_n_n Cert.ReferenceIdeal.S16384x16384 Cert.ReferenceIdeal.S16384x5 16384
  rw [key]
  subst hl; subst hr'
  by_cases h : p.val < 12288
  · refine (concatenate_pair_apply_left (t := Cert.KernelIdeal.S16384x5) (s₁ := Cert.KernelIdeal.S12288x5)
      (s₂ := Cert.KernelIdeal.S4096x5) (0 : Fin 2) _ _ _ (ix2 p q) rfl
      (ix2 (⟨p.val, h⟩ : Fin 12288) q : Cert.KernelIdeal.S12288x5.Idx)
      (fun b => match b with | ⟨0, _⟩ => rfl | ⟨1, _⟩ => rfl)).trans ?_
    rw [prod_apply]
    exact Finset.sum_congr rfl fun k _ => by rw [padx_apply, dif_pos h]
  · have hp := p.isLt
    have ha : p.val - 12288 + 12288 = p.val := by omega
    refine (concatenate_pair_apply_right (t := Cert.KernelIdeal.S16384x5) (s₁ := Cert.KernelIdeal.S12288x5)
      (s₂ := Cert.KernelIdeal.S4096x5) (0 : Fin 2) _ _ _ (ix2 p q) rfl rfl
      (ix2 (⟨p.val - 12288, by omega⟩ : Fin 4096) q : Cert.KernelIdeal.S4096x5.Idx)
      (fun b hb => match b, hb with | ⟨0, _⟩, hb => absurd rfl hb | ⟨1, _⟩, _ => rfl)
      ha).trans ?_
    rw [zeros_apply]
    refine (Finset.sum_eq_zero fun k _ => ?_).symm
    rw [padx_apply, dif_neg h, zero_mul]

end Cert.Bridge

end
-- ==== Proof.LibFold.lean ====
/-
  A value stored into a typed buffer and read back is the value.

  An operation of an outlined function stores its result through a transport along its buffer's type equation, and the
  next operation reads it back through the inverse transport. Evaluating a line of such operations leaves these pairs
  nested one inside another around every intermediate value. The two transports cancel whatever the equation's proof
  is, so one rewriting pass with this fact removes them all before the value is compared with anything.
-/
import Idealize.ShloMosaic.Lib.StableHlo
import Idealize.ShloMosaic.Lib.StableHlo.Run

noncomputable section

namespace Cert.Lib.Fold

open Idealize.ShloMosaic Idealize.ShloMosaic.StableHlo

variable {sig : RefSig} {Val : EltTy → Type}

/-- A value stored into a typed buffer and read back is the value: the two transports along the buffer's type equation
    cancel. -/
theorem ofBuf_toBuf {T : BufTy} (x : TRef sig T) (v : T.Contents Val) : x.ofBuf (x.toBuf v) = v := by
  obtain ⟨r, h, hd, hu⟩ := x
  subst h
  rfl

end Cert.Lib.Fold

end
-- ==== Proof.LibCatPair.lean ====
/-
  A two-piece concatenation whose pieces can be rewritten.

  The library's concatenation takes a list of (shape, contents) pairs and a side condition stated over the list's
  shapes; because the condition's type mentions the list, a simplifier pass does not rewrite the contents inside it.
  `catPair` is the same function of two pieces with the condition stated over the two shapes alone, so the pieces are
  ordinary arguments; `concatenate_pair_eq` turns one into the other and holds by unfolding.
-/
import Idealize.ShloMosaic.PureOps

noncomputable section

namespace Cert.Lib.CatPair

open Idealize.ShloMosaic

/-- The concatenation of two pieces along axis `a`, its side condition stated over the two shapes. -/
def catPair {α : Type} (t : Shape) (a : Fin t.rank) (s₁ s₂ : Shape) (x₁ : s₁.Idx → α) (x₂ : s₂.Idx → α)
    (h : Shape.Concatenates [s₁, s₂] t a) : t.Idx → α :=
  concatenate t a [⟨s₁, x₁⟩, ⟨s₂, x₂⟩] h

/-- The library's concatenation of a two-element list is `catPair` of the two pieces. -/
theorem concatenate_pair_eq {α : Type} (t : Shape) (a : Fin t.rank) (s₁ s₂ : Shape) (x₁ : s₁.Idx → α) (x₂ : s₂.Idx → α)
    (h : Shape.Concatenates [s₁, s₂] t a) :
    concatenate t a [⟨s₁, x₁⟩, ⟨s₂, x₂⟩] h = catPair t a s₁ s₂ x₁ x₂ h := rfl

end Cert.Lib.CatPair

end
-- ==== Proof.Bridge.lean ====
/-
  The two programs' results are one term. After the region the kernel's program pads the product with zero rows and
  applies the graph aggregation, the bias, the relu, the second layer and the log-softmax; the reference applies the
  same operations to the product of the padded x with w, computing the self-looped edge lists and the symmetric
  normalisation once per layer where the kernel's program computes them once. Read as pure terms of the argument
  arrays the two differ only in that first array, and there they agree (padding commutes with the product).
-/
import proofs.«119099_j46462956208716_2_alg».proof.Proof.KFinal
import proofs.«119099_j46462956208716_2_alg».proof.Proof.KRun
import proofs.«119099_j46462956208716_2_alg».proof.Proof.PadDot
import proofs.«119099_j46462956208716_2_alg».proof.Proof.PRefRun
import proofs.«119099_j46462956208716_2_alg».proof.Proof.LibFold
import proofs.«119099_j46462956208716_2_alg».proof.Proof.LibCatPair
import Idealize.ShloMosaic.Lib.StableHlo.Run

noncomputable section

open Idealize.ShloMosaic Idealize.ShloMosaic.TcCoe Idealize.SL.Sem Idealize.ShloMosaic.StableHlo

namespace Cert.Bridge

open Cert.KernelIdeal Cert.KernelIdeal.Gen Cert.KernelIdeal.GenP

/-! A value handed between an operation of an outlined function and one of the main program passes through a transport
    along the buffer's type equation; at these eight buffers the equation holds by computation and the transport is the
    identity. -/
theorem toBuf_v68 (h1 : main_v68.ty = ⟨S16384x1, .f32⟩) (h2 : main_v68.space ≠ .host) (h3 : main_v68.isScoped = false)
    (v : (⟨S16384x1, .f32⟩ : BufTy).Contents (Elt Ideal)) :
    (TRef.of (sig := sig) (T := ⟨S16384x1, .f32⟩) main_v68 h1 h2 h3).toBuf v = v := rfl
theorem ofBuf_v67 (h1 : main_v67.ty = ⟨S16384x1, .f32⟩) (h2 : main_v67.space ≠ .host) (h3 : main_v67.isScoped = false)
    (v : main_v67.ty.Contents (Elt Ideal)) :
    (TRef.of (sig := sig) (T := ⟨S16384x1, .f32⟩) main_v67 h1 h2 h3).ofBuf v = v := rfl
theorem toBuf_v51 (h1 : main_v51.ty = ⟨S16384x5, .f32⟩) (h2 : main_v51.space ≠ .host) (h3 : main_v51.isScoped = false)
    (v : (⟨S16384x5, .f32⟩ : BufTy).Contents (Elt Ideal)) :
    (TRef.of (sig := sig) (T := ⟨S16384x5, .f32⟩) main_v51 h1 h2 h3).toBuf v = v := rfl
theorem ofBuf_v50 (h1 : main_v50.ty = ⟨S16384x5, .f32⟩) (h2 : main_v50.space ≠ .host) (h3 : main_v50.isScoped = false)
    (v : main_v50.ty.Contents (Elt Ideal)) :
    (TRef.of (sig := sig) (T := ⟨S16384x5, .f32⟩) main_v50 h1 h2 h3).ofBuf v = v := rfl
theorem toBuf_v16 (h1 : main_v16.ty = ⟨S16384, .f32⟩) (h2 : main_v16.space ≠ .host) (h3 : main_v16.isScoped = false)
    (v : (⟨S16384, .f32⟩ : BufTy).Contents (Elt Ideal)) :
    (TRef.of (sig := sig) (T := ⟨S16384, .f32⟩) main_v16 h1 h2 h3).toBuf v = v := rfl
theorem ofBuf_v12 (h1 : main_v12.ty = ⟨S16384, .i1⟩) (h2 : main_v12.space ≠ .host) (h3 : main_v12.isScoped = false)
    (v : main_v12.ty.Contents (Elt Ideal)) :
    (TRef.of (sig := sig) (T := ⟨S16384, .i1⟩) main_v12 h1 h2 h3).ofBuf v = v := rfl
theorem ofBuf_v15 (h1 : main_v15.ty = ⟨S16384, .f32⟩) (h2 : main_v15.space ≠ .host) (h3 : main_v15.isScoped = false)
    (v : main_v15.ty.Contents (Elt Ideal)) :
    (TRef.of (sig := sig) (T := ⟨S16384, .f32⟩) main_v15 h1 h2 h3).ofBuf v = v := rfl
theorem ofBuf_cst3 (h1 : main_cst_3.ty = ⟨S_, .f32⟩) (h2 : main_cst_3.space ≠ .host) (h3 : main_cst_3.isScoped = false)
    (v : main_cst_3.ty.Contents (Elt Ideal)) :
    (TRef.of (sig := sig) (T := ⟨S_, .f32⟩) main_cst_3 h1 h2 h3).ofBuf v = v := rfl

set_option maxRecDepth 65536 in
set_option maxHeartbeats 40000000 in
/-- From memories agreeing on the six arguments, the reference's result term is the kernel program's result. -/
theorem tail_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.ValueP.res_main_v100 (F := Ideal) m' c = Cert.KernelIdeal.Hand.result (F := Ideal) m c := by
  obtain ⟨h0, h1, h2, h3, h4, h5⟩ := hag
  -- the region's arrays: the result array holds the product, every other buffer what the host prefix left
  have e32 : Pipeline.withArrays (cfgs 0).spec c (V0 m c) (fun w => (dats m 0 c).arrAt w (cfgs 0).N) (Proc.devRef .tc main_v32)
      = Cert.MatSpec.prod (m ((c.tc : Thread nD τ).loc main_arg0)) (m ((c.tc : Thread nD τ).loc main_arg2)) :=
    (Pipeline.withArrays_arr spec0 launch0.win.arr_inj c _ _ 2).trans (Cert.KernelIdeal.Hand.final m c)
  have ene : ∀ b : Ref sig .tc, (∀ w, Pipeline.arrRef spec0 w ≠ b) →
      Pipeline.withArrays (cfgs 0).spec c (V0 m c) (fun w => (dats m 0 c).arrAt w (cfgs 0).N) (Proc.devRef .tc b)
        = V0 m c (Proc.devRef .tc b) := fun b hb => Pipeline.withArrays_of_ne _ c (V0 m c) _ b hb
  have e3 := ene main_v3 (by decide)
  have e6 := ene main_v6 (by decide)
  have e31 := ene main_v31 (by decide)
  have ea3 := ene main_arg3 (by decide)
  have ea4 := ene main_arg4 (by decide)
  have ea5 := ene main_arg5 (by decide)
  clear ene
  unfold Cert.KernelIdeal.Hand.result Pipeline.afterTail₀
  generalize Pipeline.withArrays (cfgs 0).spec c (V0 m c) (fun w => (dats m 0 c).arrAt w (cfgs 0).N) = Wv at e32 e3 e6 e31 ea3 ea4 ea5 ⊢
  simp only [hostOps1, hostOps1_1, hostOps1_2, hostOps1_3, List.flatten_cons, List.flatten_nil, List.append_nil, List.cons_append, List.nil_append]
  -- the tail's operations, outermost first; a concatenation's two pieces are made ordinary arguments so that the pass reaches them
  simp (disch := decide) only [Cert.Lib.CatPair.concatenate_pair_eq, Cert.Lib.Fold.ofBuf_toBuf, toBuf_v68, ofBuf_v67, toBuf_v51, ofBuf_v50, toBuf_v16, ofBuf_v12, ofBuf_v15, ofBuf_cst3, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rw [e32, e3, e6, e31, ea3, ea4, ea5]
  simp only [V0, hostOps0, hostOps0_1, hostOps0_2, List.flatten_cons, List.flatten_nil, List.append_nil, List.cons_append, List.nil_append]
  simp (disch := decide) only [Cert.Lib.CatPair.concatenate_pair_eq, Cert.Lib.Fold.ofBuf_toBuf, toBuf_v68, ofBuf_v67, toBuf_v51, ofBuf_v50, toBuf_v16, ofBuf_v12, ofBuf_v15, ofBuf_cst3, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  simp only [Cert.Lib.CatPair.catPair]
  rw [Cert.Bridge.pad_dot]
  unfold Cert.ReferenceIdeal.ValueP.res_main_v100
  rw [h0, h1, h2, h3, h4, h5]
  rfl

end Cert.Bridge

end
-- ==== Proof.lean ====
/-
  A two-layer graph convolution whose first linear map x · W1 (x : 12288 × 16384, W1 : 16384 × 5) runs on the matrix
  unit, blocked 12 × 8 over rows and the contraction axis, with the block of the result accumulated in place along the
  contraction axis; the reference pads x with 4096 zero rows first and multiplies once on the host.

  Over the extended reals the two agree. The narrowing of the blocks to bf16 is the identity, the matrix unit's product
  is the plain sum of products, and addition is commutative and associative, so the eight partial sums a grid row
  accumulates are the sum over the whole contraction axis (KBody, KPay, KBlocks, KChain, KFinal: the region's result
  array is the product). Padding the product with zero rows is the product with the padded x, because zero times any
  extended real is zero (PadDot). Everything after that first array is the same chain of host operations in both
  programs — the self-looped edge lists, the degrees and their inverse square roots, the gathers and scatter-adds of the
  aggregation, the biases, the relu, the second layer, the log-softmax — so the two results are one term of the
  argument arrays (Bridge). No finiteness of the inputs is used. The ideal pass rewrote nothing, so the kernel's
  idealization is its own text read over the extended reals.
-/
import proofs.«119099_j46462956208716_2_alg».proof.Defs
import proofs.«119099_j46462956208716_2_alg».proof.Proof.Gen.Kernel
import proofs.«119099_j46462956208716_2_alg».proof.Proof.Gen.KernelIdeal
import proofs.«119099_j46462956208716_2_alg».proof.Proof.Gen.ReferenceIdeal
import proofs.«119099_j46462956208716_2_alg».proof.Proof.Gen.Pre_finite_inputs
import proofs.«119099_j46462956208716_2_alg».proof.Proof.PKernelFrame
import proofs.«119099_j46462956208716_2_alg».proof.Proof.PKernelIdealFrame
import proofs.«119099_j46462956208716_2_alg».proof.Proof.PRefRun
import proofs.«119099_j46462956208716_2_alg».proof.Proof.KRun
import proofs.«119099_j46462956208716_2_alg».proof.Proof.Bridge
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Over the extended reals, from memories agreeing on the arguments, both programs end with the same result. -/
theorem algebraic : Cert.algebraic_KernelIdeal_ReferenceIdeal := by
  intro m ρ m' ρ' _ hagree
  refine ⟨fun c => Cert.KernelIdeal.Hand.result (F := Ideal) m c, Cert.KernelIdeal.Hand.run (F := Ideal) m ρ, ?_⟩
  refine (θ_run Cert.ReferenceIdeal.defs _ _).mono (fun _ h c => ⟨(h c).1.trans ?_, (h c).2⟩)
    (Cert.ReferenceIdeal.ValueP.run (F := Ideal) m' ρ')
  exact Cert.Bridge.tail_eq m m' c (hagree c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
